-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x512x64 : Shape := ⟨4, ![1, 1, 512, 64]⟩
abbrev S1x16x2048x64 : Shape := ⟨4, ![1, 16, 2048, 64]⟩
abbrev S1x1x512x2048 : Shape := ⟨4, ![1, 1, 512, 2048]⟩
abbrev S512x64 : Shape := ⟨2, ![512, 64]⟩
abbrev S1x1x2048x64 : Shape := ⟨4, ![1, 1, 2048, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x1x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x16x2048x64, .f32⟩
  | .local _ .vmem, ⟨3, _⟩ => ⟨S1x16x2048x64, .f32⟩
  | .local _ .vmem, ⟨4, _⟩ => ⟨S1x1x512x2048, .i32⟩
  | .local _ .vmem, ⟨5, _⟩ => ⟨S1x1x512x2048, .i32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

def k0_off1 (i : grid0.Coords) : Fin 4 → Nat :=
  let c0_3 : Index := 0#32
  let arg2 : BitVec 32 := BitVec.ofNat 32 (i 2).val
  let v2 : Index := Scalar.indexCast arg2
  let c0_4 : Index := 0#32
  let c0_5 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1x1x2048x64.size a ≤ S1x16x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .f32 = 32 ∨ (Rect.block (s := S2x16x2048x64) S1x16x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S2x16x2048x64.size a
  hwx0_2 : ∀ i : grid0.Coords, EltTy.bits .f32 = 32 ∨ (Rect.block (s := S2x16x2048x64) S1x16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x1x2048x2048, .i32⟩
  | .hbm, ⟨10, _⟩ => ⟨S_, .i32⟩
  | .hbm, ⟨11, _⟩ => ⟨S2x1x2048x2048, .i32⟩
  | .hbm, ⟨12, _⟩ => ⟨S2x1x2048x2048, .i1⟩
  | .hbm, ⟨13, _⟩ => ⟨S_, .f32⟩
  | .hbm, ⟨14, _⟩ => ⟨S2x16x2048x2048, .i1⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  natLt_1_32 : 1 < 32
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Masked scaled-dot-product attention, as one function of the argument arrays at the extended reals.

  For a batch entry b, a head h and a query row i, the score of key j is the dot product of query row i with key row j
  over the 64 features, times 1/8, where the mask bit (b, 0, i, j) is set, and the constant 1e-9 (as its f32 word) where
  it is clear. A row's probabilities are exp(score - max) divided by the row sum of those exponentials, the maximum
  taken from the word of -inf. The context is the probabilities' product with the value rows.

  Two presentations of the score meet here: the product with the word of 1/8 under "mask bit set", and the quotient by
  the square root of the word of 64 under "mask bit clear" with the branches exchanged. They are one function of the
  mask bit and the dot product, on every extended real: a quotient by the real 8 is the product with 1/8.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The constants -/

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of 64.0 denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else (Real.sqrt 64 : EReal)) = _
  rw [if_neg (by norm_num), show (64 : ℝ) = 8 ^ 2 by norm_num, Real.sqrt_sq (by norm_num)]

/-! ## One row -/

/-- The maximum of a row, started from the word of -inf. -/
def rowMax {n : Nat} (f : Fin n → EReal) : EReal :=
  (Finset.univ : Finset (Fin n)).fold max (Ideal.ofBits .f32 0xFF800000#32) f

/-- The starting value is below the row's maximum, so taking the maximum with it again changes nothing. -/
theorem max_start_rowMax {n : Nat} (f : Fin n → EReal) :
    max (Ideal.ofBits .f32 0xFF800000#32) (rowMax f) = rowMax f :=
  max_eq_right ((Finset.le_fold_max _).mpr (Or.inl le_rfl))

/-- One probability of a row: the exponential of the entry less the row's maximum, over the row's sum of those. -/
def rowProb {n : Nat} (f : Fin n → EReal) (j : Fin n) : EReal :=
  Ideal.div (Ideal.exp (f j - rowMax f)) (∑ k : Fin n, Ideal.exp (f k - rowMax f))

/-! ## The masked, scaled score -/

/-- The score from the mask word (the bit widened to 32 bits) and the dot product: scaled where the word is not zero,
    the small constant where it is. -/
def maskedScoreW (w : BitVec 32) (dot : EReal) : EReal :=
  Scalar.select (IntOp.cmpi .ne w 0#32) (dot * Ideal.ofBits .f32 0x3E000000#32) (Ideal.ofBits .f32 0x3089705F#32)

/-- The score from the mask bit and the dot product: scaled where the bit is set, the small constant where clear. -/
def maskedScore (mbit : BitVec 1) (dot : EReal) : EReal := maskedScoreW (mbit.setWidth 32) dot

theorem cmpi_ne_widened : ∀ b : BitVec 1, IntOp.cmpi .ne (b.setWidth 32) 0#32 = b := by decide
theorem cmpi_eq_widened : ∀ b : BitVec 1, IntOp.cmpi .eq (b.setWidth 32) 0#32 = ~~~b := by decide

/-- The other presentation: "bit clear" chooses the constant, else the quotient by the root of 64. -/
theorem maskedScore_quotient (mbit : BitVec 1) (dot : EReal) :
    Scalar.select (IntOp.cmpi .eq (mbit.setWidth 32) 0#32) (Ideal.ofBits .f32 0x3089705F#32)
      (Ideal.div dot (Ideal.sqrt (Ideal.ofBits .f32 0x42800000#32))) = maskedScore mbit dot := by
  unfold maskedScore maskedScoreW
  rw [cmpi_ne_widened, cmpi_eq_widened, ofBits_64, sqrt_64, Ideal.div_coe (by norm_num : (8 : ℝ) ≠ 0), ofBits_eighth]
  by_cases h : mbit = 1#1
  · subst h
    rw [show ~~~(1#1 : BitVec 1) = 0#1 by decide, select_zero, select_one]
  · obtain rfl := eq_zero_of_ne_one h
    rw [show ~~~(0#1 : BitVec 1) = 1#1 by decide, select_zero, select_one]

/-! ## The result arrays -/

abbrev SQ : Shape := ⟨4, ![2, 16, 2048, 64]⟩
abbrev SM : Shape := ⟨4, ![2, 1, 2048, 2048]⟩
abbrev SA : Shape := ⟨4, ![2, 16, 2048, 2048]⟩

/-- The score row of query (b, h, i): one entry per key. -/
def scoreRow (Q K : SQ.Idx → EReal) (M : SM.Idx → BitVec 1) (b : Fin 2) (h : Fin 16) (i : Fin 2048) : Fin 2048 → EReal :=
  fun j => maskedScore (M (ix4 b (0 : Fin 1) i j)) (∑ d : Fin 64, Q (ix4 b h i d) * K (ix4 b h j d))

/-- The probability of key j for query (b, h, i). -/
def probAt (Q K : SQ.Idx → EReal) (M : SM.Idx → BitVec 1) (b : Fin 2) (h : Fin 16) (i j : Fin 2048) : EReal :=
  rowProb (scoreRow Q K M b h i) j

/-- The context of query (b, h, i) at feature e: the probabilities' product with the value rows. -/
def ctxAt (Q K V : SQ.Idx → EReal) (M : SM.Idx → BitVec 1) (b : Fin 2) (h : Fin 16) (i : Fin 2048) (e : Fin 64) : EReal :=
  ∑ j : Fin 2048, probAt Q K M b h i j * V (ix4 b h j e)

/-- The attention-probability array. -/
def attn (Q K : SQ.Idx → EReal) (M : SM.Idx → BitVec 1) : SA.Idx → EReal :=
  fun x => probAt Q K M (x 0) (x 1) (x 2) (x 3)

/-- The context array. -/
def ctx (Q K V : SQ.Idx → EReal) (M : SM.Idx → BitVec 1) : SQ.Idx → EReal :=
  fun x => ctxAt Q K V M (x 0) (x 1) (x 2) (x 3)

end Cert.Attn

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.BodyAttn.lean ====
/-
  The kernel body's arithmetic read at coordinates, at the extended reals.

  The body's probabilities are a softmax of a score matrix: the score matrix is the product of the query block with the
  transposed key block, times the word of 1/8, selected against the small constant by the mask block's words; the
  softmax subtracts each row's maximum (a lane reduction kept as a column and broadcast back), exponentiates, and
  divides by the row's sum (the same column form). Read at (p, j) these are the specification's row functions of the
  blocks' entries. The context block is the probabilities' product with the value block.
-/
import proofs.«176602_j72241349919165_2_alg».proof.Proof.Gen.KernelIdeal.Skeleton
import proofs.«176602_j72241349919165_2_alg».proof.Proof.Spec
import proofs.«176602_j72241349919165_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Attn Cert.LibKeepdims

/-! ## The two matrix products -/

theorem qk_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product into a zero accumulator, at (p, j): the sum over the contracted axis of the row's and the column's products. -/
theorem qk_apply (A : FVec Ideal S512x64 .f32) (B : FVec Ideal S64x2048 .f32) (p : Fin 512) (j : Fin 2048) :
    matmul dot_S512x64_S64x2048_S512x2048_1_0_0_1_n_n (some .fp32) A B (constant S512x2048 .f32 0x00000000#32) (ix2 p j) = ∑ d : Fin 64, A (ix2 p d) * B (ix2 d j) := by
  refine (Ideal.matmul_constant_zero_apply dot_S512x64_S64x2048_S512x2048_1_0_0_1_n_n (some .fp32) A B (ix2 p j)).trans ?_
  rw [← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 p j) ((ValueIdx.contrEquiv1 dot_S512x64_S64x2048_S512x2048_1_0_0_1_n_n 64 rfl rfl).symm k) = ix2 p k := funext fun a => Fin.ext (by
    match a with
    | ⟨0, _⟩ => exact qk_lhs0 _ _
    | ⟨1, _⟩ => exact (qk_lhs1 _ _).trans hk)
  have er : dot_S512x64_S64x2048_S512x2048_1_0_0_1_n_n.rhsIdx (ix2 p j) ((ValueIdx.contrEquiv1 dot_S512x64_S64x2048_S512x2048_1_0_0_1_n_n 64 rfl rfl).symm k) = ix2 k j := funext fun a => Fin.ext (by
    match a with
    | ⟨0, _⟩ => exact (qk_rhs0 _ _).trans hk
    | ⟨1, _⟩ => exact qk_rhs1 _ _)
  rw [el, er]

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product into a zero accumulator, at (p, j): the sum over the contracted axis of the row's and the column's products. -/
theorem pv_apply (A : FVec Ideal S512x2048 .f32) (B : FVec Ideal S2048x64 .f32) (p : Fin 512) (j : Fin 64) :
    matmul dot_S512x2048_S2048x64_S512x64_1_0_0_1_n_n (some .fp32) A B (constant S512x64 .f32 0x00000000#32) (ix2 p j) = ∑ d : Fin 2048, A (ix2 p d) * B (ix2 d j) := by
  refine (Ideal.matmul_constant_zero_apply dot_S512x2048_S2048x64_S512x64_1_0_0_1_n_n (some .fp32) A B (ix2 p j)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p j) ((ValueIdx.contrEquiv1 dot_S512x2048_S2048x64_S512x64_1_0_0_1_n_n 2048 rfl rfl).symm k) = ix2 p k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 p j) ((ValueIdx.contrEquiv1 dot_S512x2048_S2048x64_S512x64_1_0_0_1_n_n 2048 rfl rfl).symm k) = ix2 k j := funext fun a => Fin.ext (by
    match a with
    | ⟨0, _⟩ => exact (pv_rhs0 _ _).trans hk
    | ⟨1, _⟩ => exact pv_rhs1 _ _)
  rw [el, er]

/-! ## The softmax of a score matrix -/

/-- Row p of a matrix with key k put on the reduced axis. -/
theorem lift_eq (p : Fin 512) (k : Fin 2048) : reduces_S512x2048_S512.lift (ix1 p) k = ix2 p k :=
  funext fun a => Fin.ext (by match a with | ⟨0, _⟩ => rfl | ⟨1, _⟩ => rfl)

/-- The lane maximum of row p, from the word of -inf. -/
theorem laneMax_apply (s : FVec Ideal S512x2048 .f32) (p : Fin 512) :
    multiReduction .maximumf [1] S512 s 0xFF800000#32 reduces_S512x2048_S512 (.inl rfl) rfl (ix1 p)
      = rowMax (fun k : Fin 2048 => s (ix2 p k)) := by
  refine (Ideal.multiReduction_maximumf_single s 0xFF800000#32 reduces_S512x2048_S512 (.inl rfl) rfl (ix1 p)).trans ?_
  have e : (s ∘ reduces_S512x2048_S512.lift (ix1 p)) = fun k : Fin 2048 => s (ix2 p k) :=
    funext fun (k : Fin 2048) => congrArg s (lift_eq p k)
  rw [e]
  rfl

/-- The lane sum of row p, from the zero word. -/
theorem laneSum_apply (e : FVec Ideal S512x2048 .f32) (p : Fin 512) :
    multiReduction .add [1] S512 e 0x00000000#32 reduces_S512x2048_S512 (.inl rfl) rfl (ix1 p)
      = ∑ k : Fin 2048, e (ix2 p k) := by
  refine (Ideal.multiReduction_add_single e 0x00000000#32 reduces_S512x2048_S512 (.inl rfl) rfl (ix1 p)).trans ?_
  exact Finset.sum_congr rfl fun (k : Fin 2048) _ => congrArg e (lift_eq p k)

/-- The exponentials of a score matrix less its rows' maxima. -/
def expVec (s : FVec Ideal S512x2048 .f32) : FVec Ideal S512x2048 .f32 :=
  exp (subf s (broadcastTo S512x2048 (shapeCast S512x1 (multiReduction .maximumf [1] S512 s 0xFF800000#32 reduces_S512x2048_S512 (.inl rfl) rfl) shapeCasts_S512_S512x1) broadcasts_S512x1_S512x2048))

/-- The softmax of a score matrix along its rows. -/
def softmaxVec (s : FVec Ideal S512x2048 .f32) : FVec Ideal S512x2048 .f32 :=
  divf (expVec s) (broadcastTo S512x2048 (shapeCast S512x1 (multiReduction .add [1] S512 (expVec s) 0x00000000#32 reduces_S512x2048_S512 (.inl rfl) rfl) shapeCasts_S512_S512x1) broadcasts_S512x1_S512x2048)

theorem expVec_apply (s : FVec Ideal S512x2048 .f32) (p : Fin 512) (j : Fin 2048) :
    expVec s (ix2 p j) = Ideal.exp (s (ix2 p j) - rowMax (fun k : Fin 2048 => s (ix2 p k))) := by
  unfold expVec
  show Ideal.exp (s (ix2 p j) - broadcastTo S512x2048 (shapeCast S512x1 (multiReduction .maximumf [1] S512 s 0xFF800000#32 reduces_S512x2048_S512 (.inl rfl) rfl) shapeCasts_S512_S512x1) broadcasts_S512x1_S512x2048 (ix2 p j)) = _
  rw [column_apply _ shapeCasts_S512_S512x1 broadcasts_S512x1_S512x2048 p j, laneMax_apply]

/-- The softmax at (p, j) is the row probability of row p. -/
theorem softmaxVec_apply (s : FVec Ideal S512x2048 .f32) (p : Fin 512) (j : Fin 2048) :
    softmaxVec s (ix2 p j) = rowProb (fun k : Fin 2048 => s (ix2 p k)) j := by
  unfold softmaxVec rowProb
  show Ideal.div (expVec s (ix2 p j)) (broadcastTo S512x2048 (shapeCast S512x1 (multiReduction .add [1] S512 (expVec s) 0x00000000#32 reduces_S512x2048_S512 (.inl rfl) rfl) shapeCasts_S512_S512x1) broadcasts_S512x1_S512x2048 (ix2 p j)) = _
  rw [column_apply _ shapeCasts_S512_S512x1 broadcasts_S512x1_S512x2048 p j, laneSum_apply, expVec_apply]
  simp only [expVec_apply]

/-! ## The score matrix of the blocks -/

/-- The masked, scaled score matrix of a query block, a key block and a mask block. -/
def scoreVec (v0 : FVec Ideal S1x1x512x64 .f32) (v3 : FVec Ideal S1x1x2048x64 .f32) (v12 : IVec S1x1x512x2048 32) : FVec Ideal S512x2048 .f32 :=
  select (cmpi .ne (shapeCast S512x2048 v12 shapeCasts_S1x1x512x2048_S512x2048) (constantI S512x2048 32 0#32))
    (mulf (matmul dot_S512x64_S64x2048_S512x2048_1_0_0_1_n_n (some .fp32) (shapeCast S512x64 v0 shapeCasts_S1x1x512x64_S512x64)
        (transpose S64x2048 [1, 0] (shapeCast S2048x64 v3 shapeCasts_S1x1x2048x64_S2048x64) transposes_S2048x64_p1_0_S64x2048)
        (constant S512x2048 .f32 0x00000000#32))
      (broadcast S512x2048 (Scalar.ofBits .f32 0x3E000000#32)))
    (broadcast S512x2048 (Scalar.ofBits .f32 0x3089705F#32))

/-- Row p of the blocks' scores, one entry per key. -/
def blockScore (v0 : FVec Ideal S1x1x512x64 .f32) (v3 : FVec Ideal S1x1x2048x64 .f32) (v12 : IVec S1x1x512x2048 32) (p : Fin 512) : Fin 2048 → EReal :=
  fun j => maskedScoreW (v12 (ix4 (0 : Fin 1) (0 : Fin 1) p j)) (∑ d : Fin 64, v0 (ix4 (0 : Fin 1) (0 : Fin 1) p d) * v3 (ix4 (0 : Fin 1) (0 : Fin 1) j d))

theorem scoreVec_apply (v0 : FVec Ideal S1x1x512x64 .f32) (v3 : FVec Ideal S1x1x2048x64 .f32) (v12 : IVec S1x1x512x2048 32) (p : Fin 512) (j : Fin 2048) :
    scoreVec v0 v3 v12 (ix2 p j) = blockScore v0 v3 v12 p j := by
  unfold scoreVec blockScore maskedScoreW
  show Scalar.select (IntOp.cmpi .ne (shapeCast S512x2048 v12 shapeCasts_S1x1x512x2048_S512x2048 (ix2 p j)) 0#32)
      (matmul dot_S512x64_S64x2048_S512x2048_1_0_0_1_n_n (some .fp32) (shapeCast S512x64 v0 shapeCasts_S1x1x512x64_S512x64)
        (transpose S64x2048 [1, 0] (shapeCast S2048x64 v3 shapeCasts_S1x1x2048x64_S2048x64) transposes_S2048x64_p1_0_S64x2048)
        (constant S512x2048 .f32 0x00000000#32) (ix2 p j) * Ideal.ofBits .f32 0x3E000000#32)
      (Ideal.ofBits .f32 0x3089705F#32) = _
  rw [shapeCast_11ab_ab_apply v12 shapeCasts_S1x1x512x2048_S512x2048 p j, qk_apply]
  have e : ∀ d : Fin 64, shapeCast S512x64 v0 shapeCasts_S1x1x512x64_S512x64 (ix2 p d)
        * transpose S64x2048 [1, 0] (shapeCast S2048x64 v3 shapeCasts_S1x1x2048x64_S2048x64) transposes_S2048x64_p1_0_S64x2048 (ix2 d j)
      = v0 (ix4 (0 : Fin 1) (0 : Fin 1) p d) * v3 (ix4 (0 : Fin 1) (0 : Fin 1) j d) := fun d => by
    rw [shapeCast_11ab_ab_apply v0 shapeCasts_S1x1x512x64_S512x64 p d,
      transpose_ix2_apply _ transposes_S2048x64_p1_0_S64x2048 d j,
      shapeCast_11ab_ab_apply v3 shapeCasts_S1x1x2048x64_S2048x64 j d]
  rw [Finset.sum_congr rfl fun d _ => e d]

/-! ## The payloads -/

/-- The body's probabilities are the softmax of the blocks' score matrix. -/
theorem pay2_eq (v0 : FVec Ideal S1x1x512x64 .f32) (v3 : FVec Ideal S1x1x2048x64 .f32) (v12 : IVec S1x1x512x2048 32) :
    k0_pay2 (F := Ideal) v0 v3 v12 = softmaxVec (scoreVec v0 v3 v12) := rfl

/-- The probabilities at (p, j). -/
theorem pay2_apply (v0 : FVec Ideal S1x1x512x64 .f32) (v3 : FVec Ideal S1x1x2048x64 .f32) (v12 : IVec S1x1x512x2048 32) (p : Fin 512) (j : Fin 2048) :
    k0_pay2 (F := Ideal) v0 v3 v12 (ix2 p j) = rowProb (blockScore v0 v3 v12 p) j := by
  rw [pay2_eq, softmaxVec_apply]
  have e : (fun k : Fin 2048 => scoreVec v0 v3 v12 (ix2 p k)) = blockScore v0 v3 v12 p :=
    funext fun k => scoreVec_apply v0 v3 v12 p k
  rw [e]

/-- The stored probability block at (0, 0, p, j). -/
theorem pay3_apply (v0 : FVec Ideal S1x1x512x64 .f32) (v3 : FVec Ideal S1x1x2048x64 .f32) (v12 : IVec S1x1x512x2048 32) (u w : Fin 1) (p : Fin 512) (j : Fin 2048) :
    k0_pay3 (F := Ideal) v0 v3 v12 (ix4 u w p j) = rowProb (blockScore v0 v3 v12 p) j := by
  unfold k0_pay3
  refine (shapeCast_ab_11ab_apply (k0_pay2 (F := Ideal) v0 v3 v12) shapeCasts_S512x2048_S1x1x512x2048 u w p j).trans ?_
  exact pay2_apply v0 v3 v12 p j

/-- The context block at (p, e): the probabilities' product with the value block. -/
theorem pay4_apply (v0 : FVec Ideal S1x1x512x64 .f32) (v3 v6 : FVec Ideal S1x1x2048x64 .f32) (v12 : IVec S1x1x512x2048 32) (p : Fin 512) (e : Fin 64) :
    k0_pay4 (F := Ideal) v0 v3 v6 v12 (ix2 p e)
      = ∑ j : Fin 2048, rowProb (blockScore v0 v3 v12 p) j * v6 (ix4 (0 : Fin 1) (0 : Fin 1) j e) := by
  unfold k0_pay4
  refine (pv_apply (k0_pay2 (F := Ideal) v0 v3 v12) (shapeCast S2048x64 v6 shapeCasts_S1x1x2048x64_S2048x64) p e).trans ?_
  refine Finset.sum_congr rfl fun j _ => ?_
  rw [pay2_apply, shapeCast_11ab_ab_apply v6 shapeCasts_S1x1x2048x64_S2048x64 j e]

/-- The stored context block at (0, 0, p, e). -/
theorem pay1_apply (v29 : FVec Ideal S512x64 .f32) (u w : Fin 1) (p : Fin 512) (e : Fin 64) :
    k0_pay1 (F := Ideal) v29 (ix4 u w p e) = v29 (ix2 p e) := by
  unfold k0_pay1
  exact shapeCast_ab_11ab_apply v29 shapeCasts_S512x64_S1x1x512x64 u w p e

end Cert.KernelIdeal.Body

end
-- ==== Proof.Pieces.lean ====
/-
  What the kernel body leaves in its two output buffers, as values of the blocks it loads.

  The body stores each output buffer whole, once. The probability buffer ends holding the probabilities of the query
  block, of the key rows of the head the grid point names (the key buffer read at that head's offset), and of the mask
  block; the context buffer ends holding their product with that head's value rows. The buffers' earlier contents, which
  the body also loads, do not enter.
-/
import proofs.«176602_j72241349919165_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The zero offsets of a whole-buffer access. -/
theorem hz4 : (![0, 0, 0, 0] : Fin 4 → Nat) = fun _ => 0 := funext fun a => by fin_cases a <;> rfl

/-- The rows of one head in a [1, 16, 2048, 64] buffer: the buffer read at the head offset of grid point i. -/
abbrev headRows (i : grid0.Coords) (x : Vec F S1x16x2048x64 .f32) : Vec F S1x1x2048x64 .f32 :=
  View.ld x (Rect.unit (k0_off1 i) S1x1x2048x64.size (k0_off1_inb i))

/-- The probability buffer after the body: the probabilities of the loaded blocks. -/
theorem out5_eq (c : Dev nD) (i : grid0.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .f32) (harg5 : arg5.IsWhole) (arg6 : Memref sig .tc .vmem S1x1x512x2048 .i32) (harg6 : arg6.IsWhole) (arg7 : Memref sig .tc .vmem S1x1x512x64 .f32) (harg7 : arg7.IsWhole) (arg8 : Memref sig .tc .vmem S1x1x512x2048 .f32) (harg8 : arg8.IsWhole) (x0 : Vec F S1x1x512x64 .f32) (x1 : Vec F S1x16x2048x64 .f32) (x2 : Vec F S1x16x2048x64 .f32) (x3 : Vec F S1x1x512x2048 .i32) :
    out0_A_5 c i arg3 harg3 arg4 harg4 arg5 harg5 arg6 harg6 arg7 harg7 arg8 harg8 x0 x1 x2 x3 = k0_pay3 x0 (headRows i x1) x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  rw [View.canon_unit_zero hz4]
  simp only [View.readAt_eq_ld, harg3.read_unread, harg4.read_unread, harg6.read_unread, View.ld_unit_zero (S := S1x1x512x64) hz4, View.ld_unit_zero (S := S1x1x512x2048) hz4]

/-- The context buffer after the body: the probabilities' product with the head's value rows. -/
theorem out4_eq (c : Dev nD) (i : grid0.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .f32) (harg5 : arg5.IsWhole) (arg6 : Memref sig .tc .vmem S1x1x512x2048 .i32) (harg6 : arg6.IsWhole) (arg7 : Memref sig .tc .vmem S1x1x512x64 .f32) (harg7 : arg7.IsWhole) (arg8 : Memref sig .tc .vmem S1x1x512x2048 .f32) (harg8 : arg8.IsWhole) (x0 : Vec F S1x1x512x64 .f32) (x1 : Vec F S1x16x2048x64 .f32) (x2 : Vec F S1x16x2048x64 .f32) (x3 : Vec F S1x1x512x2048 .i32) :
    out0_A_4 c i arg3 harg3 arg4 harg4 arg5 harg5 arg6 harg6 arg7 harg7 arg8 harg8 x0 x1 x2 x3 = k0_pay1 (k0_pay4 x0 (headRows i x1) (headRows i x2) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_run_names
  rw [View.canon_unit_zero hz4]
  simp only [View.readAt_eq_ld, harg3.read_unread, harg4.read_unread, harg5.read_unread, harg6.read_unread, View.ld_unit_zero (S := S1x1x512x64) hz4, View.ld_unit_zero (S := S1x1x512x2048) hz4]

end Cert.KernelIdeal.Pieces

end
-- ==== Proof.Blocks.lean ====
/-
  From the grid points' blocks to the two result arrays.

  Grid point t = (b, q, h) works on batch entry b, head h and query rows 512 q … 512 q + 511: its query block is those rows
  of (b, h); its key and value buffers hold all sixteen heads of batch entry b, of which the body reads head h; its mask
  block is those query rows of the one mask plane of b, widened to words before the region. By the body's arithmetic
  (read at coordinates) the probability block it writes back is that block of the attention specification of the
  argument arrays, and the context block that block of the context specification. Every index of either result array
  lies in exactly the block of the point (b, ⌊i/512⌋, h), so the arrays end holding the two specifications.
-/
import proofs.«176602_j72241349919165_2_alg».proof.Proof.Gen.KernelIdeal.Value
import proofs.«176602_j72241349919165_2_alg».proof.Proof.BodyAttn
import proofs.«176602_j72241349919165_2_alg».proof.Proof.Pieces
import Idealize.ShloMosaic.Lib.StableHlo.Run

set_option maxRecDepth 16384

noncomputable section

namespace Cert.KernelIdeal.Blocks

open Cert.KernelIdeal Cert.KernelIdeal.Gen Cert.KernelIdeal.Body Cert.KernelIdeal.Pieces
open Idealize.ShloMosaic Idealize.ShloMosaic.TcCoe Idealize.SL.Sem Idealize.ShloMosaic.ValueIdx Idealize.ShloMosaic.StableHlo
open Idealize.ShloMosaic.Pipeline (Dat)
open Cert.Attn

/-! ## One grid point, over explicit coordinates -/

section Point

variable (Q K Vv : SQ.Idx → EReal) (M : SM.Idx → BitVec 1)
  (x0 : FVec Ideal S1x1x512x64 .f32) (x1 x2 : FVec Ideal S1x1x2048x64 .f32) (x3 : IVec S1x1x512x2048 32)
  (p : Fin 512) (b : Fin 2) (h : Fin 16) (i : Fin 2048)

/-- Where the blocks' entries are the arrays' entries of query (b, h, i), the block's score row p is that query's. -/
theorem score_eq (h0 : ∀ d : Fin 64, x0 (ix4 (0 : Fin 1) (0 : Fin 1) p d) = Q (ix4 b h i d))
    (h1 : ∀ (k : Fin 2048) (d : Fin 64), x1 (ix4 (0 : Fin 1) (0 : Fin 1) k d) = K (ix4 b h k d))
    (h3 : ∀ k : Fin 2048, x3 (ix4 (0 : Fin 1) (0 : Fin 1) p k) = (M (ix4 b (0 : Fin 1) i k)).setWidth 32) :
    blockScore x0 x1 x3 p = scoreRow Q K M b h i := by
  funext k
  unfold blockScore scoreRow maskedScore
  rw [h3 k]
  simp only [h0, h1]

/-- … so the stored probability at (p, j) is the specification's. -/
theorem point_prob (u w : Fin 1) (j : Fin 2048) (h0 : ∀ d : Fin 64, x0 (ix4 (0 : Fin 1) (0 : Fin 1) p d) = Q (ix4 b h i d))
    (h1 : ∀ (k : Fin 2048) (d : Fin 64), x1 (ix4 (0 : Fin 1) (0 : Fin 1) k d) = K (ix4 b h k d))
    (h3 : ∀ k : Fin 2048, x3 (ix4 (0 : Fin 1) (0 : Fin 1) p k) = (M (ix4 b (0 : Fin 1) i k)).setWidth 32) :
    k0_pay3 (F := Ideal) x0 x1 x3 (ix4 u w p j) = probAt Q K M b h i j := by
  rw [pay3_apply, score_eq Q K M x0 x1 x3 p b h i h0 h1 h3]
  rfl

/-- … and the stored context at (p, e) is the specification's. -/
theorem point_ctx (u w : Fin 1) (e : Fin 64) (h0 : ∀ d : Fin 64, x0 (ix4 (0 : Fin 1) (0 : Fin 1) p d) = Q (ix4 b h i d))
    (h1 : ∀ (k : Fin 2048) (d : Fin 64), x1 (ix4 (0 : Fin 1) (0 : Fin 1) k d) = K (ix4 b h k d))
    (h2 : ∀ (k : Fin 2048) (d : Fin 64), x2 (ix4 (0 : Fin 1) (0 : Fin 1) k d) = Vv (ix4 b h k d))
    (h3 : ∀ k : Fin 2048, x3 (ix4 (0 : Fin 1) (0 : Fin 1) p k) = (M (ix4 b (0 : Fin 1) i k)).setWidth 32) :
    k0_pay1 (F := Ideal) (k0_pay4 x0 x1 x2 x3) (ix4 u w p e) = ctxAt Q K Vv M b h i e := by
  rw [pay1_apply, pay4_apply, score_eq Q K M x0 x1 x3 p b h i h0 h1 h3]
  unfold ctxAt probAt
  simp only [h2]

end Point

variable (m : (ℓ : Loc nD τ sig) → Buf (Elt Ideal) ℓ) (ρ : Dev nD → PrngReg)

/-! ## The arrays as the region finds them -/

/-- The mask words the region finds: the launch mask's bits widened. -/
theorem V_mask (c : Dev nD) :
    (V m c main_v0 : S2x1x2048x2048.Idx → BitVec 32) = extui 32 (m ((c : Thread nD τ).loc main_arg3)) natLt_1_32 := by
  dsimp only [Gen.V, Gen.hostOps0]; after_results

/-! ## The printed index maps, decided once over the 128 grid points -/

theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = 0
    ∧ win0_1.index t (2 : Fin 4) = 0 ∧ win0_1.index t (3 : Fin 4) = 0
    ∧ win0_2.index t (0 : Fin 4) = win0_5.index t (0 : Fin 4) ∧ win0_2.index t (1 : Fin 4) = 0
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) < 2 ∧ win0_5.index t (1 : Fin 4) < 16 ∧ win0_5.index t (2 : Fin 4) < 4
    ∧ k0_off1 (grid0.coords t) (0 : Fin 4) = 0 ∧ k0_off1 (grid0.coords t) (1 : Fin 4) = win0_5.index t (1 : Fin 4)
    ∧ k0_off1 (grid0.coords t) (2 : Fin 4) = 0 ∧ k0_off1 (grid0.coords t) (3 : Fin 4) = 0 :=
  (by decide +kernel : ∀ t : Fin grid0.N, _)

/-- Every (batch entry, head, block of 512 query rows) is some grid point's. -/
theorem idx_onto : ∀ (q0 : Fin 2) (q1 : Fin 16) (q2 : Fin 4), ∃ t : Fin cfg0.N, win0_5.index t = ![q0.val, q1.val, q2.val, 0] :=
  (by decide +kernel : ∀ (q0 : Fin 2) (q1 : Fin 16) (q2 : Fin 4), ∃ t : Fin grid0.N, win0_5.index t = ![q0.val, q1.val, q2.val, 0])

/-! ## The blocks read at coordinates -/

/-- An entry of the query block is the query array's entry at (b, h, i, d). -/
theorem read_q (c : Dev nD) (t : Fin cfg0.N) (b : Fin 2) (h : Fin 16) (i : Fin 2048) (p : Fin 512) (d : Fin 64)
    (hb : b.val = win0_5.index t (0 : Fin 4)) (hh : h.val = win0_5.index t (1 : Fin 4))
    (hi : i.val = win0_5.index t (2 : Fin 4) * 512 + p.val) :
    iblk m c 0 t (ix4 (0 : Fin 1) (0 : Fin 1) p d) = V m c main_arg0 (ix4 b h i d) := by
  obtain ⟨a0, a1, a2, a3, k0, k1, k2, k3, v0, v1, v2, v3, m0, m1, m2, m3, c0, c1, c2, c3, p3, f0, f1, f2, o0, o1, o2, o3⟩ := idx_facts t
  show V m c main_arg0 (((cfg0.win 0).blk t).view.emb (ix4 (0 : Fin 1) (0 : Fin 1) p d)) = _
  have e : ((cfg0.win 0).blk t).view.emb (ix4 (0 : Fin 1) (0 : Fin 1) p d) = ix4 b h i d :=
    funext fun a => Fin.ext (by
      match a with
      | ⟨0, _⟩ => show win0_0.index t (0 : Fin 4) * 1 + 1 * 0 = b.val; omega
      | ⟨1, _⟩ => show win0_0.index t (1 : Fin 4) * 1 + 1 * 0 = h.val; omega
      | ⟨2, _⟩ => show win0_0.index t (2 : Fin 4) * 512 + 1 * p.val = i.val; omega
      | ⟨3, _⟩ => show win0_0.index t (3 : Fin 4) * 64 + 1 * d.val = d.val; omega)
  rw [e]

/-- An entry of the head's rows of window 1's block is the array's entry at (b, h, k, d). -/
theorem read_k (c : Dev nD) (t : Fin cfg0.N) (b : Fin 2) (h : Fin 16) (k : Fin 2048) (d : Fin 64)
    (hb : b.val = win0_5.index t (0 : Fin 4)) (hh : h.val = win0_5.index t (1 : Fin 4)) :
    headRows (grid0.coords t) (iblk m c 1 t) (ix4 (0 : Fin 1) (0 : Fin 1) k d) = V m c main_arg1 (ix4 b h k d) := by
  obtain ⟨a0, a1, a2, a3, k0, k1, k2, k3, v0, v1, v2, v3, m0, m1, m2, m3, c0, c1, c2, c3, p3, f0, f1, f2, o0, o1, o2, o3⟩ := idx_facts t
  show V m c main_arg1 (((cfg0.win 1).blk t).view.emb ((Rect.unit (s := S1x16x2048x64) (k0_off1 (grid0.coords t)) S1x1x2048x64.size (k0_off1_inb (grid0.coords t))).idx (ix4 (0 : Fin 1) (0 : Fin 1) k d))) = _
  have e : ((cfg0.win 1).blk t).view.emb ((Rect.unit (s := S1x16x2048x64) (k0_off1 (grid0.coords t)) S1x1x2048x64.size (k0_off1_inb (grid0.coords t))).idx (ix4 (0 : Fin 1) (0 : Fin 1) k d)) = ix4 b h k d :=
    funext fun a => Fin.ext (by
      match a with
      | ⟨0, _⟩ => show win0_1.index t (0 : Fin 4) * 1 + 1 * (k0_off1 (grid0.coords t) (0 : Fin 4) + 1 * 0) = b.val; omega
      | ⟨1, _⟩ => show win0_1.index t (1 : Fin 4) * 16 + 1 * (k0_off1 (grid0.coords t) (1 : Fin 4) + 1 * 0) = h.val; omega
      | ⟨2, _⟩ => show win0_1.index t (2 : Fin 4) * 2048 + 1 * (k0_off1 (grid0.coords t) (2 : Fin 4) + 1 * k.val) = k.val; omega
      | ⟨3, _⟩ => show win0_1.index t (3 : Fin 4) * 64 + 1 * (k0_off1 (grid0.coords t) (3 : Fin 4) + 1 * d.val) = d.val; omega)
  rw [e]

/-- An entry of the head's rows of window 2's block is the array's entry at (b, h, k, d). -/
theorem read_v (c : Dev nD) (t : Fin cfg0.N) (b : Fin 2) (h : Fin 16) (k : Fin 2048) (d : Fin 64)
    (hb : b.val = win0_5.index t (0 : Fin 4)) (hh : h.val = win0_5.index t (1 : Fin 4)) :
    headRows (grid0.coords t) (iblk m c 2 t) (ix4 (0 : Fin 1) (0 : Fin 1) k d) = V m c main_arg2 (ix4 b h k d) := by
  obtain ⟨a0, a1, a2, a3, k0, k1, k2, k3, v0, v1, v2, v3, m0, m1, m2, m3, c0, c1, c2, c3, p3, f0, f1, f2, o0, o1, o2, o3⟩ := idx_facts t
  show V m c main_arg2 (((cfg0.win 2).blk t).view.emb ((Rect.unit (s := S1x16x2048x64) (k0_off1 (grid0.coords t)) S1x1x2048x64.size (k0_off1_inb (grid0.coords t))).idx (ix4 (0 : Fin 1) (0 : Fin 1) k d))) = _
  have e : ((cfg0.win 2).blk t).view.emb ((Rect.unit (s := S1x16x2048x64) (k0_off1 (grid0.coords t)) S1x1x2048x64.size (k0_off1_inb (grid0.coords t))).idx (ix4 (0 : Fin 1) (0 : Fin 1) k d)) = ix4 b h k d :=
    funext fun a => Fin.ext (by
      match a with
      | ⟨0, _⟩ => show win0_2.index t (0 : Fin 4) * 1 + 1 * (k0_off1 (grid0.coords t) (0 : Fin 4) + 1 * 0) = b.val; omega
      | ⟨1, _⟩ => show win0_2.index t (1 : Fin 4) * 16 + 1 * (k0_off1 (grid0.coords t) (1 : Fin 4) + 1 * 0) = h.val; omega
      | ⟨2, _⟩ => show win0_2.index t (2 : Fin 4) * 2048 + 1 * (k0_off1 (grid0.coords t) (2 : Fin 4) + 1 * k.val) = k.val; omega
      | ⟨3, _⟩ => show win0_2.index t (3 : Fin 4) * 64 + 1 * (k0_off1 (grid0.coords t) (3 : Fin 4) + 1 * d.val) = d.val; omega)
  rw [e]

/-- A word of the mask block is the launch mask's bit at (b, 0, i, k), widened. -/
theorem read_mask (c : Dev nD) (t : Fin cfg0.N) (b : Fin 2) (i : Fin 2048) (p : Fin 512) (k : Fin 2048)
    (hb : b.val = win0_5.index t (0 : Fin 4)) (hi : i.val = win0_5.index t (2 : Fin 4) * 512 + p.val) :
    iblk m c 3 t (ix4 (0 : Fin 1) (0 : Fin 1) p k) = ((m ((c : Thread nD τ).loc main_arg3)) (ix4 b (0 : Fin 1) i k)).setWidth 32 := by
  obtain ⟨a0, a1, a2, a3, k0, k1, k2, k3, v0, v1, v2, v3, m0, m1, m2, m3, c0, c1, c2, c3, p3, f0, f1, f2, o0, o1, o2, o3⟩ := idx_facts t
  show V m c main_v0 (((cfg0.win 3).blk t).view.emb (ix4 (0 : Fin 1) (0 : Fin 1) p k)) = _
  have e : ((cfg0.win 3).blk t).view.emb (ix4 (0 : Fin 1) (0 : Fin 1) p k) = ix4 b (0 : Fin 1) i k :=
    funext fun a => Fin.ext (by
      match a with
      | ⟨0, _⟩ => show win0_3.index t (0 : Fin 4) * 1 + 1 * 0 = b.val; omega
      | ⟨1, _⟩ => show win0_3.index t (1 : Fin 4) * 1 + 1 * 0 = 0; omega
      | ⟨2, _⟩ => show win0_3.index t (2 : Fin 4) * 512 + 1 * p.val = i.val; omega
      | ⟨3, _⟩ => show win0_3.index t (3 : Fin 4) * 2048 + 1 * k.val = k.val; omega)
  rw [e, V_mask]
  rfl

/-! ## What each point writes back -/

/-- Point t writes back block t of the attention specification of the arrays as the region finds them. -/
theorem flushed5_eq (c : Dev nD) (t : Fin cfg0.N) :
    (dats m 0 c).flushed 5 t = ((cfg0.win 5).blk t).view.read (Elt Ideal)
      (attn (V m c main_arg0) (V m c main_arg1) (m ((c : Thread nD τ).loc main_arg3))) := by
  rw [Value.flushed5_A, out5_eq]
  refine funext fun (y : S1x1x512x2048.Idx) => ?_
  obtain ⟨u, w, p, j, rfl⟩ : ∃ (u w : Fin 1) (p : Fin 512) (j : Fin 2048), y = ix4 u w p j := ⟨y 0, y 1, y 2, y 3, eq_ix4 y⟩
  obtain ⟨a0, a1, a2, a3, k0, k1, k2, k3, v0, v1, v2, v3, m0, m1, m2, m3, c0, c1, c2, c3, p3, f0, f1, f2, o0, o1, o2, o3⟩ := idx_facts t
  obtain ⟨b, hb⟩ : ∃ b : Fin 2, b.val = win0_5.index t (0 : Fin 4) := ⟨⟨_, f0⟩, rfl⟩
  obtain ⟨h, hh⟩ : ∃ h : Fin 16, h.val = win0_5.index t (1 : Fin 4) := ⟨⟨_, f1⟩, rfl⟩
  obtain ⟨i, hi⟩ : ∃ i : Fin 2048, i.val = win0_5.index t (2 : Fin 4) * 512 + p.val := ⟨⟨_, by have := p.isLt; omega⟩, rfl⟩
  have e : ((cfg0.win 5).blk t).view.emb (ix4 u w p j) = ix4 b h i j :=
    funext fun a => Fin.ext (by
      match a with
      | ⟨0, _⟩ => show win0_5.index t (0 : Fin 4) * 1 + 1 * u.val = b.val; omega
      | ⟨1, _⟩ => show win0_5.index t (1 : Fin 4) * 1 + 1 * w.val = h.val; omega
      | ⟨2, _⟩ => show win0_5.index t (2 : Fin 4) * 512 + 1 * p.val = i.val; omega
      | ⟨3, _⟩ => show win0_5.index t (3 : Fin 4) * 2048 + 1 * j.val = j.val; omega)
  show k0_pay3 (F := Ideal) (iblk m c 0 t) (headRows (grid0.coords t) (iblk m c 1 t)) (iblk m c 3 t) (ix4 u w p j)
      = attn (V m c main_arg0) (V m c main_arg1) (m ((c : Thread nD τ).loc main_arg3)) (((cfg0.win 5).blk t).view.emb (ix4 u w p j))
  rw [e]
  exact point_prob (V m c main_arg0) (V m c main_arg1) (m ((c : Thread nD τ).loc main_arg3)) (iblk m c 0 t) (headRows (grid0.coords t) (iblk m c 1 t)) (iblk m c 3 t) p b h i u w j
    (fun d => read_q m c t b h i p d hb hh hi) (fun k d => read_k m c t b h k d hb hh) (fun k => read_mask m c t b i p k hb hi)

/-- Point t writes back block t of the context specification of the arrays as the region finds them. -/
theorem flushed4_eq (c : Dev nD) (t : Fin cfg0.N) :
    (dats m 0 c).flushed 4 t = ((cfg0.win 4).blk t).view.read (Elt Ideal)
      (ctx (V m c main_arg0) (V m c main_arg1) (V m c main_arg2) (m ((c : Thread nD τ).loc main_arg3))) := by
  rw [Value.flushed4_A, out4_eq]
  refine funext fun (y : S1x1x512x64.Idx) => ?_
  obtain ⟨u, w, p, e, rfl⟩ : ∃ (u w : Fin 1) (p : Fin 512) (e : Fin 64), y = ix4 u w p e := ⟨y 0, y 1, y 2, y 3, eq_ix4 y⟩
  obtain ⟨a0, a1, a2, a3, k0, k1, k2, k3, v0, v1, v2, v3, m0, m1, m2, m3, c0, c1, c2, c3, p3, f0, f1, f2, o0, o1, o2, o3⟩ := idx_facts t
  obtain ⟨b, hb⟩ : ∃ b : Fin 2, b.val = win0_5.index t (0 : Fin 4) := ⟨⟨_, f0⟩, rfl⟩
  obtain ⟨h, hh⟩ : ∃ h : Fin 16, h.val = win0_5.index t (1 : Fin 4) := ⟨⟨_, f1⟩, rfl⟩
  obtain ⟨i, hi⟩ : ∃ i : Fin 2048, i.val = win0_5.index t (2 : Fin 4) * 512 + p.val := ⟨⟨_, by have := p.isLt; omega⟩, rfl⟩
  have ee : ((cfg0.win 4).blk t).view.emb (ix4 u w p e) = ix4 b h i e :=
    funext fun a => Fin.ext (by
      match a with
      | ⟨0, _⟩ => show win0_4.index t (0 : Fin 4) * 1 + 1 * u.val = b.val; omega
      | ⟨1, _⟩ => show win0_4.index t (1 : Fin 4) * 1 + 1 * w.val = h.val; omega
      | ⟨2, _⟩ => show win0_4.index t (2 : Fin 4) * 512 + 1 * p.val = i.val; omega
      | ⟨3, _⟩ => show win0_4.index t (3 : Fin 4) * 64 + 1 * e.val = e.val; omega)
  show k0_pay1 (F := Ideal) (k0_pay4 (iblk m c 0 t) (headRows (grid0.coords t) (iblk m c 1 t)) (headRows (grid0.coords t) (iblk m c 2 t)) (iblk m c 3 t)) (ix4 u w p e)
      = ctx (V m c main_arg0) (V m c main_arg1) (V m c main_arg2) (m ((c : Thread nD τ).loc main_arg3)) (((cfg0.win 4).blk t).view.emb (ix4 u w p e))
  rw [ee]
  exact point_ctx (V m c main_arg0) (V m c main_arg1) (V m c main_arg2) (m ((c : Thread nD τ).loc main_arg3)) (iblk m c 0 t) (headRows (grid0.coords t) (iblk m c 1 t)) (headRows (grid0.coords t) (iblk m c 2 t)) (iblk m c 3 t) p b h i u w e
    (fun d => read_q m c t b h i p d hb hh hi) (fun k d => read_k m c t b h k d hb hh) (fun k d => read_v m c t b h k d hb hh) (fun k => read_mask m c t b i p k hb hi)

/-! ## The blocks cover the arrays -/

/-- An index of the probability array is in point t's block iff each coordinate is in the block's range. -/
theorem mem_blk5 (t : Fin cfg0.N) (i : S2x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

/-- An index of the context array is in point t's block iff each coordinate is in the block's range. -/
theorem mem_blk4 (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- Every index of the probability array is in the block of the point of its batch entry, head and row block. -/
theorem cover5 (i : S2x16x2048x2048.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ := idx_onto ⟨(i 0).val, h0⟩ ⟨(i 1).val, h1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the context array is in the block of the point of its batch entry, head and row block. -/
theorem cover4 (i : S2x16x2048x64.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 512, by omega⟩
  obtain ⟨a0, a1, a2, a3, k0, k1, k2, k3, v0, v1, v2, v3, m0, m1, m2, m3, c0, c1, c2, c3, p3, f0, f1, f2, o0, o1, o2, o3⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The result arrays -/

/-- The probability array ends holding the attention specification of the launch arrays. -/
theorem final5 (c : Dev nD) :
    (dats m 0 c).arrAt 5 cfg0.N = attn (m ((c : Thread nD τ).loc main_arg0)) (m ((c : Thread nD τ).loc main_arg1)) (m ((c : Thread nD τ).loc main_arg3)) :=
  ((dats m 0 c).arrAt_eq_of_cover 5 _ (fun t _ => flushed5_eq m c t) cover5).trans (by rw [V_main_arg0, V_main_arg1])

/-- The context array ends holding the context specification of the launch arrays. -/
theorem final4 (c : Dev nD) :
    (dats m 0 c).arrAt 4 cfg0.N = ctx (m ((c : Thread nD τ).loc main_arg0)) (m ((c : Thread nD τ).loc main_arg1)) (m ((c : Thread nD τ).loc main_arg2)) (m ((c : Thread nD τ).loc main_arg3)) :=
  ((dats m 0 c).arrAt_eq_of_cover 4 _ (fun t _ => flushed4_eq m c t) cover4).trans (by rw [V_main_arg0, V_main_arg1, V_main_arg2])

/-- The kernel's run with both result arrays named: every weakly fair execution ends with the context array at the
    context specification, the probability array at the attention specification, and the arguments unchanged. -/
theorem run : θ_run defs (onTc (τ := τ) (main (F := Ideal))) ⟨m, fun _ => 0, ρ⟩ fun r => ∀ c : Dev nD,
      r.2.mem ((c : Thread nD τ).loc main_v1_0) = ctx (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.RefAttn.lean ====
/-
  The reference computes the attention specification.

  Read one operation at a time at explicit coordinates (b, h, i, j): the reference's masked score is the specification's
  score (the quotient by the root of 64 is the product with 1/8, the two mask tests are complementary); its row maximum
  is a fold of max from the word of -inf over the keys, and taking the maximum with -inf once more changes nothing; its
  exponentials, row sum (started from the zero word) and quotient are then the specification's row probability; and its
  second contraction is the specification's context.
-/
import proofs.«176602_j72241349919165_2_alg».proof.Proof.Gen.ReferenceIdeal.Read
import proofs.«176602_j72241349919165_2_alg».proof.Proof.Spec

noncomputable section

namespace Cert.ReferenceIdeal.RefAttn

open Cert.ReferenceIdeal Cert.ReferenceIdeal.Gen Cert.ReferenceIdeal.Read Idealize.ShloMosaic Idealize.ShloMosaic.ValueIdx
open Cert.Attn

variable (x0 x1 x2 : (⟨S2x16x2048x64, .f32⟩ : BufTy).Contents (Elt Ideal)) (x3 : (⟨S2x1x2048x2048, .i1⟩ : BufTy).Contents (Elt Ideal))

/-- The masked score at (b, h, i, j). -/
theorem score_apply (b : Fin 2) (h : Fin 16) (i j : Fin 2048) :
    val_main_v7 (F := Ideal) x0 x1 x3 (ix4 b h i j) = scoreRow x0 x1 x3 b h i j := by
  have e0 : idx_main_call0_v0 (ix4 b h i j) = ix4 b (0 : Fin 1) i j :=
    funext fun a => Fin.ext (by match a with | ⟨0, _⟩ => rfl | ⟨1, _⟩ => rfl | ⟨2, _⟩ => rfl | ⟨3, _⟩ => rfl)
  have el : ∀ k : Fin 64, lidx_main_v0 (ix4 b h i j) k = ix4 b h i k := fun k =>
    funext fun a => Fin.ext (by match a with | ⟨0, _⟩ => rfl | ⟨1, _⟩ => rfl | ⟨2, _⟩ => rfl | ⟨3, _⟩ => rfl)
  have er : ∀ k : Fin 64, ridx_main_v0 (ix4 b h i j) k = ix4 b h j k := fun k =>
    funext fun a => Fin.ext (by match a with | ⟨0, _⟩ => rfl | ⟨1, _⟩ => rfl | ⟨2, _⟩ => rfl | ⟨3, _⟩ => rfl)
  rw [val_main_v7_apply, val_main_call0_v0_apply, val_main_v6_apply, val_main_v4_apply, val_main_v5_apply,
    val_main_c_apply, val_main_call0_v1_apply, val_main_cst_0_apply, val_main_v3_apply, val_main_v0_apply,
    val_main_v2_apply, val_main_v1_apply, val_main_cst_apply, e0]
  simp only [el, er, Ideal.hostDivf_def, Ideal.hostUnary_sqrt_def, Ideal.ofBits_def]
  exact maskedScore_quotient _ _

/-- The axis the two reductions drop. -/
theorem reduces3 : S2x16x2048x2048.Reduces [3] S2x16x2048 := by decide

/-- The row's index with key k put back on the dropped axis. -/
theorem lift_eq (b : Fin 2) (h : Fin 16) (i k : Fin 2048) : reduces3.lift (ix3 b h i) k = ix4 b h i k :=
  funext fun a => Fin.ext (by match a with | ⟨0, _⟩ => rfl | ⟨1, _⟩ => rfl | ⟨2, _⟩ => rfl | ⟨3, _⟩ => rfl)

/-- The row maximum at (b, h, i). -/
theorem max_apply (b : Fin 2) (h : Fin 16) (i : Fin 2048) :
    val_main_v10 (F := Ideal) x0 x1 x3 (ix3 b h i) = rowMax (scoreRow x0 x1 x3 b h i) := by
  rw [val_main_v10_apply, val_main_v9_apply, val_main_cst_2_apply]
  unfold val_main_v8
  rw [Host.reduce_eq_fold_single FloatOps.maximumf _ _ reducesTo_S2x16x2048x2048_S2x16x2048_d3 reduces3 h_S_ (ix3 b h i)]
  have e : (val_main_v7 (F := Ideal) x0 x1 x3 ∘ reduces3.lift (ix3 b h i)) = scoreRow x0 x1 x3 b h i :=
    funext fun (k : Fin 2048) =>
      (congrArg (val_main_v7 (F := Ideal) x0 x1 x3) (lift_eq b h i k)).trans (score_apply x0 x1 x3 b h i k)
  rw [e]
  exact max_start_rowMax _

/-- One exponential at (b, h, i, k). -/
theorem exp_apply (b : Fin 2) (h : Fin 16) (i k : Fin 2048) :
    val_main_v14 (F := Ideal) x0 x1 x3 (ix4 b h i k)
      = Ideal.exp (scoreRow x0 x1 x3 b h i k - rowMax (scoreRow x0 x1 x3 b h i)) := by
  have e : idx_main_v11 (idx_main_v12 (ix4 b h i k)) = ix3 b h i :=
    funext fun a => Fin.ext (by match a with | ⟨0, _⟩ => rfl | ⟨1, _⟩ => rfl | ⟨2, _⟩ => rfl)
  rw [val_main_v14_apply, val_main_v13_apply, val_main_v12_apply, val_main_v11_apply, e, max_apply, score_apply]
  rfl

/-- The probability at (b, h, i, j). -/
theorem prob_apply (b : Fin 2) (h : Fin 16) (i j : Fin 2048) :
    val_main_v18 (F := Ideal) x0 x1 x3 (ix4 b h i j) = probAt x0 x1 x3 b h i j := by
  have e : idx_main_v16 (idx_main_v17 (ix4 b h i j)) = ix3 b h i :=
    funext fun a => Fin.ext (by match a with | ⟨0, _⟩ => rfl | ⟨1, _⟩ => rfl | ⟨2, _⟩ => rfl)
  have ek : ∀ k : Fin 2048, idx_main_v15 (ix3 b h i) k = ix4 b h i k := fun k =>
    funext fun a => Fin.ext (by match a with | ⟨0, _⟩ => rfl | ⟨1, _⟩ => rfl | ⟨2, _⟩ => rfl | ⟨3, _⟩ => rfl)
  rw [val_main_v18_apply, val_main_v17_apply, val_main_v16_apply, e, val_main_v15_apply, val_main_cst_3_apply, exp_apply]
  simp only [ek, exp_apply, Ideal.hostDivf_def, Ideal.ofBits_def, Ideal.ofBits_zero_f32, zero_add]
  rfl

/-- The reference's probabilities are the specification's. -/
theorem attn_eq : val_main_v18 (F := Ideal) x0 x1 x3 = attn x0 x1 x3 := by
  funext x
  obtain ⟨b, h, i, j, rfl⟩ : ∃ (b : Fin 2) (h : Fin 16) (i j : Fin 2048), x = ix4 b h i j := ⟨x 0, x 1, x 2, x 3, eq_ix4 x⟩
  exact prob_apply x0 x1 x3 b h i j

/-- The reference's context is the specification's. -/
theorem ctx_eq : val_main_v19 (F := Ideal) x0 x1 x2 x3 = ctx x0 x1 x2 x3 := by
  funext x
  obtain ⟨b, h, i, e, rfl⟩ : ∃ (b : Fin 2) (h : Fin 16) (i : Fin 2048) (e : Fin 64), x = ix4 b h i e := ⟨x 0, x 1, x 2, x 3, eq_ix4 x⟩
  have el : ∀ k : Fin 2048, lidx_main_v19 (ix4 b h i e) k = ix4 b h i k := fun k =>
    funext fun a => Fin.ext (by match a with | ⟨0, _⟩ => rfl | ⟨1, _⟩ => rfl | ⟨2, _⟩ => rfl | ⟨3, _⟩ => rfl)
  have er : ∀ k : Fin 2048, ridx_main_v19 (ix4 b h i e) k = ix4 b h k e := fun k =>
    funext fun a => Fin.ext (by match a with | ⟨0, _⟩ => rfl | ⟨1, _⟩ => rfl | ⟨2, _⟩ => rfl | ⟨3, _⟩ => rfl)
  rw [val_main_v19_apply]
  simp only [el, er, prob_apply]
  rfl

end Cert.ReferenceIdeal.RefAttn

end
-- ==== Proof.lean ====
/-
  Masked scaled-dot-product attention computed block by block against its one-line definition: the proof of the claim.

  The kernel visits grid points (batch entry, block of 512 query rows, head). At each it multiplies the query block by the
  head's transposed key rows, scales by 1/8, replaces the entries whose mask bit is clear by the constant 1e-9, takes the
  softmax of each row (maximum, exponentials, sum, quotient), writes the probabilities back, and writes back their
  product with the head's value rows. The reference computes the same four steps on the whole arrays: a batched
  contraction divided by the square root of 64, the same masking, the softmax along the key axis, a second batched contraction.

  At the extended reals both are one function of the argument arrays (Proof/Spec.lean): the quotient by the root of 64
  is the product with 1/8 on every extended real, the two mask tests are complementary, both row maxima are folds of max
  from -inf, both sums are the exact sums, and the contractions are the same sums of products. No finiteness of the
  inputs is used. The kernel's side is Proof/BodyAttn.lean (the body's arithmetic at coordinates), Proof/Pieces.lean (what
  the body leaves in its output buffers) and Proof/Blocks.lean (the blocks tile the result arrays); the reference's side
  is Proof/RefAttn.lean over its run read one operation at a time. The idealization rewrote nothing, so it is preserved
  trivially; the three frames are the programs' own runs with the results dropped.
-/
import proofs.«176602_j72241349919165_2_alg».proof.Defs
import proofs.«176602_j72241349919165_2_alg».proof.Proof.Gen.Kernel
import proofs.«176602_j72241349919165_2_alg».proof.Proof.Gen.Kernel.Skeleton
import proofs.«176602_j72241349919165_2_alg».proof.Proof.Gen.Kernel.Launch
import proofs.«176602_j72241349919165_2_alg».proof.Proof.Gen.Kernel.Points
import proofs.«176602_j72241349919165_2_alg».proof.Proof.Gen.Kernel.Frame
import proofs.«176602_j72241349919165_2_alg».proof.Proof.Gen.KernelIdeal
import proofs.«176602_j72241349919165_2_alg».proof.Proof.Gen.KernelIdeal.Skeleton
import proofs.«176602_j72241349919165_2_alg».proof.Proof.Gen.KernelIdeal.Launch
import proofs.«176602_j72241349919165_2_alg».proof.Proof.Gen.KernelIdeal.Points
import proofs.«176602_j72241349919165_2_alg».proof.Proof.Gen.KernelIdeal.Frame
import proofs.«176602_j72241349919165_2_alg».proof.Proof.Gen.ReferenceIdeal
import proofs.«176602_j72241349919165_2_alg».proof.Proof.Gen.Pre_finite_inputs
import proofs.«176602_j72241349919165_2_alg».proof.Proof.Gen.KernelIdeal.Value
import proofs.«176602_j72241349919165_2_alg».proof.Proof.Gen.ReferenceIdeal.Run
import proofs.«176602_j72241349919165_2_alg».proof.Proof.Gen.ReferenceIdeal.Read
import proofs.«176602_j72241349919165_2_alg».proof.Proof.Blocks
import proofs.«176602_j72241349919165_2_alg».proof.Proof.RefAttn
import Idealize.ShloMosaic.Adequacy
import Idealize.ShloMosaic.Init

noncomputable section

namespace Cert.Proof

open Idealize.ShloMosaic Idealize.SL.Sem Cert.Attn

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the context array at the context specification
    and the probability array at the attention specification of those arguments. -/
theorem algebraic : Cert.algebraic_KernelIdeal_ReferenceIdeal := by
  intro m ρ m' ρ' _ hagree
  refine ⟨fun c => ctx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.ReferenceIdeal.RefAttn.ctx_eq,
      (hagree c).1, (hagree c).2.1, (hagree c).2.2.1, (hagree c).2.2.2]
  · rw [Cert.ReferenceIdeal.Read.val_main_v18_eq, Cert.ReferenceIdeal.RefAttn.attn_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
